-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S262144 : Shape := ⟨1, ![262144]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S16777216 .f32) (main_arg1 : FVec F S262144 .f32) (main_arg2 : IVec S16777216 32) (main_arg3 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  main_v8
-- ==== Kernel.lean ====
abbrev S16777216 : Shape := ⟨1, ![16777216]⟩
abbrev S262144 : Shape := ⟨1, ![262144]⟩
abbrev S131072x128 : Shape := ⟨2, ![131072, 128]⟩
abbrev S4096x128 : Shape := ⟨2, ![4096, 128]⟩
abbrev S_ : Shape := ⟨0, ![]⟩
abbrev S16777216x1 : Shape := ⟨2, ![16777216, 1]⟩

abbrev nBuf : Space → Nat
  | .hbm => 34
  | .vmem => 4
  | .smem => 0
  | _ => 0

abbrev bufTy : (tb : Table) → Fin (tcTables nBuf tb) → BufTy
  | .hbm, ⟨0, _⟩ => ⟨S16777216, .f32⟩
  | .hbm, ⟨1, _⟩ => ⟨S262144, .f32⟩
  | .hbm, ⟨2, _⟩ => ⟨S16777216, .i32⟩
  | .hbm, ⟨3, _⟩ => ⟨S16777216, .i32⟩
  | .hbm, ⟨4, _⟩ => ⟨S131072x128, .f32⟩
  | .hbm, ⟨5, _⟩ => ⟨S131072x128, .f32⟩
  | .hbm, ⟨6, _⟩ => ⟨S16777216, .f32⟩
  | .hbm, ⟨7, _⟩ => ⟨S_, .i32⟩
  | .hbm, ⟨8, _⟩ => ⟨S16777216, .i32⟩
  | .hbm, ⟨9, _⟩ => ⟨S16777216, .i1⟩
  | .hbm, ⟨10, _⟩ => ⟨S_, .i32⟩
  | .hbm, ⟨11, _⟩ => ⟨S16777216, .i32⟩
  | .hbm, ⟨12, _⟩ => ⟨S16777216, .i32⟩
  | .hbm, ⟨13, _⟩ => ⟨S16777216, .i32⟩
  | .hbm, ⟨14, _⟩ => ⟨S16777216x1, .i32⟩
  | .hbm, ⟨15, _⟩ => ⟨S16777216, .f32⟩
  | .hbm, ⟨16, _⟩ => ⟨S_, .i32⟩
  | .hbm, ⟨17, _⟩ => ⟨S16777216, .i32⟩
  | .hbm, ⟨18, _⟩ => ⟨S16777216, .i1⟩
  | .hbm, ⟨19, _⟩ => ⟨S_, .i32⟩
  | .hbm, ⟨20, _⟩ => ⟨S16777216, .i32⟩
  | .hbm, ⟨21, _⟩ => ⟨S16777216, .i32⟩
  | .hbm, ⟨22, _⟩ => ⟨S16777216, .i32⟩
  | .hbm, ⟨23, _⟩ => ⟨S16777216x1, .i32⟩
  | .hbm, ⟨24, _⟩ => ⟨S16777216, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S262144, .f32⟩
  | .hbm, ⟨32, _⟩ => ⟨S16777216x1, .i32⟩
  | .hbm, ⟨33, _⟩ => ⟨S262144, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16777216_S131072x128 : S16777216.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S16777216 : S131072x128.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S262144 : S_.BroadcastsInDim S262144 (![] : Fin 0 → Fin S262144.rank)
  gather_S262144_S16777216x1_S16777216_n_0_n_n_0_1_1_wf : GatherDims.WF S262144 S16777216x1 S16777216 [] [0] [] [0] [] 1 ![1]
  scatter_S262144_S16777216x1_S16777216_n_0_0_1_wf : ScatterDims.WF S262144 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)

variable [Facts₀]

def gather_S262144_S16777216x1_S16777216_n_0_n_n_0_1_1 : GatherDims S262144 S16777216x1 S16777216 where
  offsetDims := []
  collapsedSliceDims := [0]
  operandBatchingDims := []
  startIndicesBatchingDims := []
  startIndexMap := [0]
  indexVectorDim := 1
  sliceSizes := ![1]
  wf := gather_S262144_S16777216x1_S16777216_n_0_n_n_0_1_1_wf
def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216 : Shape := ⟨1, ![16777216]⟩
abbrev S262144 : Shape := ⟨1, ![262144]⟩
abbrev S_ : Shape := ⟨0, ![]⟩
abbrev S16777216x1 : Shape := ⟨2, ![16777216, 1]⟩

abbrev nBuf : Space → Nat
  | .hbm => 95
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S262144, .f32⟩
  | .hbm, ⟨2, _⟩ => ⟨S16777216, .i32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S16777216, .f32⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S_, .i32⟩
  | .hbm, ⟨17, _⟩ => ⟨S16777216, .i32⟩
  | .hbm, ⟨18, _⟩ => ⟨S16777216, .i32⟩
  | .hbm, ⟨19, _⟩ => ⟨S16777216, .i32⟩
  | .hbm, ⟨20, _⟩ => ⟨S16777216x1, .i32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .i1⟩
  | .hbm, ⟨33, _⟩ => ⟨S16777216, .f32⟩
  | .hbm, ⟨34, _⟩ => ⟨S16777216, .f32⟩
  | .hbm, ⟨35, _⟩ => ⟨S_, .f32⟩
  | .hbm, ⟨36, _⟩ => ⟨S16777216, .f32⟩
  | .hbm, ⟨37, _⟩ => ⟨S16777216, .f32⟩
  | .hbm, ⟨38, _⟩ => ⟨S_, .f32⟩
  | .hbm, ⟨39, _⟩ => ⟨S16777216, .f32⟩
  | .hbm, ⟨40, _⟩ => ⟨S16777216, .f32⟩
  | .hbm, ⟨41, _⟩ => ⟨S16777216, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S_, .f32⟩
  | .hbm, ⟨47, _⟩ => ⟨S16777216, .f32⟩
  | .hbm, ⟨48, _⟩ => ⟨S16777216, .f32⟩
  | .hbm, ⟨49, _⟩ => ⟨S_, .f32⟩
  | .hbm, ⟨50, _⟩ => ⟨S_, .f32⟩
  | .hbm, ⟨51, _⟩ => ⟨S16777216, .f32⟩
  | .hbm, ⟨52, _⟩ => ⟨S16777216, .f32⟩
  | .hbm, ⟨53, _⟩ => ⟨S_, .f32⟩
  | .hbm, ⟨54, _⟩ => ⟨S16777216, .f32⟩
  | .hbm, ⟨55, _⟩ => ⟨S16777216, .f32⟩
  | .hbm, ⟨56, _⟩ => ⟨S_, .f32⟩
  | .hbm, ⟨57, _⟩ => ⟨S16777216, .f32⟩
  | .hbm, ⟨58, _⟩ => ⟨S16777216, .f32⟩
  | .hbm, ⟨59, _⟩ => ⟨S_, .f32⟩
  | .hbm, ⟨60, _⟩ => ⟨S16777216, .f32⟩
  | .hbm, ⟨61, _⟩ => ⟨S16777216, .f32⟩
  | .hbm, ⟨62, _⟩ => ⟨S16777216, .f32⟩
  | .hbm, ⟨63, _⟩ => ⟨S_, .f32⟩
  | .hbm, ⟨64, _⟩ => ⟨S16777216, .f32⟩
  | .hbm, ⟨65, _⟩ => ⟨S16777216, .f32⟩
  | .hbm, ⟨66, _⟩ => ⟨S_, .f32⟩
  | .hbm, ⟨67, _⟩ => ⟨S16777216, .f32⟩
  | .hbm, ⟨68, _⟩ => ⟨S16777216, .f32⟩
  | .hbm, ⟨69, _⟩ => ⟨S_, .f32⟩
  | .hbm, ⟨70, _⟩ => ⟨S16777216, .f32⟩
  | .hbm, ⟨71, _⟩ => ⟨S16777216, .f32⟩
  | .hbm, ⟨72, _⟩ => ⟨S16777216, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S_, .f32⟩
  | .hbm, ⟨77, _⟩ => ⟨S16777216, .f32⟩
  | .hbm, ⟨78, _⟩ => ⟨S16777216, .f32⟩
  | .hbm, ⟨79, _⟩ => ⟨S16777216, .f32⟩
  | .hbm, ⟨80, _⟩ => ⟨S16777216, .f32⟩
  | .hbm, ⟨81, _⟩ => ⟨S16777216, .f32⟩
  | .hbm, ⟨82, _⟩ => ⟨S16777216, .f32⟩
  | .hbm, ⟨83, _⟩ => ⟨S16777216, .f32⟩
  | .hbm, ⟨84, _⟩ => ⟨S_, .f32⟩
  | .hbm, ⟨85, _⟩ => ⟨S16777216, .f32⟩
  | .hbm, ⟨86, _⟩ => ⟨S16777216, .i1⟩
  | .hbm, ⟨87, _⟩ => ⟨S_, .f32⟩
  | .hbm, ⟨88, _⟩ => ⟨S_, .f32⟩
  | .hbm, ⟨89, _⟩ => ⟨S16777216, .f32⟩
  | .hbm, ⟨90, _⟩ => ⟨S16777216, .f32⟩
  | .hbm, ⟨91, _⟩ => ⟨S_, .f32⟩
  | .hbm, ⟨92, _⟩ => ⟨S262144, .f32⟩
  | .hbm, ⟨93, _⟩ => ⟨S16777216x1, .i32⟩
  | .hbm, ⟨94, _⟩ => ⟨S262144, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_call0_v0 : Ref sig .tc := ⟨.hbm, 50, rfl⟩
abbrev main_call0_v1 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_13 : Ref sig .tc := ⟨.hbm, 63, rfl⟩
abbrev main_v42 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_v45 : Ref sig .tc := ⟨.hbm, 68, rfl⟩
abbrev main_cst_15 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_16 : Ref sig .tc := ⟨.hbm, 73, rfl⟩
abbrev main_v49 : Ref sig .tc := ⟨.hbm, 74, rfl⟩
abbrev main_v50 : Ref sig .tc := ⟨.hbm, 75, rfl⟩
abbrev main_cst_17 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_18 : Ref sig .tc := ⟨.hbm, 84, rfl⟩
abbrev main_v58 : Ref sig .tc := ⟨.hbm, 85, rfl⟩
abbrev main_v59 : Ref sig .tc := ⟨.hbm, 86, rfl⟩
abbrev main_cst_19 : Ref sig .tc := ⟨.hbm, 87, rfl⟩
abbrev main_call1_v0 : Ref sig .tc := ⟨.hbm, 88, rfl⟩
abbrev main_call1_v1 : Ref sig .tc := ⟨.hbm, 89, rfl⟩
abbrev main_v60 : Ref sig .tc := ⟨.hbm, 90, rfl⟩
abbrev main_cst_20 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S262144 : S_.BroadcastsInDim S262144 (![] : Fin 0 → Fin S262144.rank)
  gather_S262144_S16777216x1_S16777216_n_0_n_n_0_1_1_wf : GatherDims.WF S262144 S16777216x1 S16777216 [] [0] [] [0] [] 1 ![1]
  scatter_S262144_S16777216x1_S16777216_n_0_0_1_wf : ScatterDims.WF S262144 S16777216x1 S16777216 [] [0] [0] 1

variable [Facts₀]

def gather_S262144_S16777216x1_S16777216_n_0_n_n_0_1_1 : GatherDims S262144 S16777216x1 S16777216 where
  offsetDims := []
  collapsedSliceDims := [0]
  operandBatchingDims := []
  startIndicesBatchingDims := []
  startIndexMap := [0]
  indexVectorDim := 1
  sliceSizes := ![1]
  wf := gather_S262144_S16777216x1_S16777216_n_0_n_n_0_1_1_wf
def scatter_S262144_S16777216x1_S16777216_n_0_0_1 : ScatterDims S262144 S16777216x1 S16777216 where
  updateWindowDims := []
  insertedWindowDims := [0]
  scatterDimsToOperandDims := [0]
  indexVectorDim := 1
  wf := scatter_S262144_S16777216x1_S16777216_n_0_0_1_wf

class Facts : Prop extends Facts₀ where

variable [Facts]
-- ==== Proof.Pairwise.lean ====
/-
  The distance-dependent factor of a pairwise electrostatic energy, as a function of ONE distance on the extended
  reals, and the one law this certificate needs about it.

  For a distance `d` put `x = d / 2`. The short-range switch is `φ = 1 - x³ (x (6x - 15) + 10)` for `x < 1` and
  `0` beyond; the shifted Coulomb term of a radius `r` is `1/r + r/100 - c`, `c` the binary word both programs
  print for two tenths; the blend is `φ · shifted (√(d² + 1)) + (1 - φ) · shifted d`; and the factor is the blend for
  `d ≤ 10`, zero beyond. Every constant is kept as the binary word it is printed as: the same word stands on both
  sides of every equation below and is never evaluated, except the zero word, which is the extended real `0`.

  The law: a multiplier times the masked factor is the mask of the product. Inside the cutoff both sides are
  the product; outside, `a · 0 = 0` holds for EVERY extended real `a`, the infinities included, so no finiteness
  of the multiplier is needed.
-/
import Idealize.ShloMosaic.PureOps.Ideal
import Idealize.ShloMosaic.PureOps.Ideal.Laws

noncomputable section

namespace Cert.Electro

open Idealize.ShloMosaic

/-- Half the distance, `x = d / 2`: the argument of the short-range switch. -/
def halfDist (d : EReal) : EReal := Ideal.div d (Ideal.ofBits .f32 0x40000000#32)

/-- The smooth switch `1 - x³ (x (6x - 15) + 10)` where `x < 1`, zero beyond, in the order both programs
    multiply: `((x · x) · x) · (x · (6 · x - 15) + 10)`. -/
def switch (d : EReal) : EReal :=
  Scalar.select (Ideal.cmp .olt (halfDist d) (Ideal.ofBits .f32 0x3F800000#32))
    (Ideal.ofBits .f32 0x3F800000#32 - halfDist d * halfDist d * halfDist d *
      (halfDist d * (Ideal.ofBits .f32 0x40C00000#32 * halfDist d - Ideal.ofBits .f32 0x41700000#32)
        + Ideal.ofBits .f32 0x41200000#32))
    (Ideal.ofBits .f32 0x00000000#32)

/-- The Coulomb term of a radius with the long-range shift: `1/r + r/100 - c`. -/
def shifted (r : EReal) : EReal :=
  Ideal.div (Ideal.ofBits .f32 0x3F800000#32) r + Ideal.div r (Ideal.ofBits .f32 0x42C80000#32)
    - Ideal.ofBits .f32 0x3E4CCCCD#32

/-- The shielded distance `√(d² + 1)`. -/
def shielded (d : EReal) : EReal := Ideal.sqrt (d * d + Ideal.ofBits .f32 0x3F800000#32)

/-- The blend of the shielded and the ordinary term: `φ · shifted (√(d² + 1)) + (1 - φ) · shifted d`. -/
def blend (d : EReal) : EReal :=
  switch d * shifted (shielded d) + (Ideal.ofBits .f32 0x3F800000#32 - switch d) * shifted d

/-- Inside the long-range cutoff: `d ≤ 10`, as a bit. -/
def inside (d : EReal) : BitVec 1 := Ideal.cmp .ole d (Ideal.ofBits .f32 0x41200000#32)

/-- The factor of one pair: the blend inside the cutoff, zero outside. -/
def factor (d : EReal) : EReal := Scalar.select (inside d) (blend d) (Ideal.ofBits .f32 0x00000000#32)

/-- A multiplier times the masked factor is the mask of the product: inside the cutoff both are `a · blend d`;
    outside, `a · 0 = 0` for every extended real `a`. -/
theorem mul_factor (a d : EReal) :
    a * factor d = Scalar.select (inside d) (a * blend d) (Ideal.ofBits .f32 0x00000000#32) := by
  unfold factor Scalar.select
  split
  · rfl
  · rw [Ideal.ofBits_zero_f32, mul_zero]

end Cert.Electro

end
-- ==== Proof.KernelArray.lean ====
/-
  What the idealized kernel's region leaves in its output array: at every index, the pair factor of the input
  array's element there.

  The body loads one [4096,128] block, computes the factor pointwise and stores the block whole, so what it stores
  is, index by index, the factor of what it loaded. Input and output windows move together (block `t` of both is
  rows `4096 t … 4096 t + 4095`), so what point `t` writes back is block `t` of the ONE whole-array function
  `i ↦ factor (input i)`; the 32 blocks cover all 131072 rows (row `r` lies in block `r / 4096`), so that function
  is the array after the region. The input array itself is the flat argument read in row-major order.
-/
import proofs.«180454_j59992103190615_2_alg».proof.Proof.Gen.KernelIdeal.Frame
import proofs.«180454_j59992103190615_2_alg».proof.Proof.Pairwise
import Idealize.ShloMosaic.Lib.Pipeline.Value
import Idealize.ShloMosaic.Lib.StableHlo.Run

set_option maxRecDepth 16384

noncomputable section

namespace Cert.KernelIdeal.Pairs

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

theorem zero_offset : (![0, 0] : Fin 2 → Nat) = fun _ => 0 := funext fun a => by fin_cases a <;> rfl

/-- The factor of every element of a [131072,128] array. -/
abbrev factors (a : S131072x128.Idx → Elt Ideal .f32) : S131072x128.Idx → Elt Ideal .f32 :=
  fun i => Cert.Electro.factor (a i)

/-- What the body stores is, index by index, the factor of what it loaded. -/
theorem stored_eq (x : Vec Ideal S4096x128 .f32) :
    k0_pay1 (F := Ideal) (k0_pay2 x) (k0_pay4 x) (k0_pay5 x) = fun j => Cert.Electro.factor (x j) := by
  unfold k0_pay1 k0_pay4 k0_pay5 k0_pay3 k0_pay2
  simp only [shapeCast_self]
  rfl

/-- Input and output windows move together, and the output's block index is the point's number on the row axis,
    zero on the lane axis. -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) ≤ 31 ∧ win0_1.index t (1 : Fin 2) = 0 :=
  (by decide +kernel : ∀ t : Fin grid0.N, _)

/-- Every one of the 32 row blocks is some point's. -/
theorem index_onto : ∀ q : Fin 32, ∃ t : Fin cfg0.N, win0_1.index t = ![q.val, 0] :=
  (by decide +kernel : ∀ q : Fin 32, ∃ t : Fin grid0.N, win0_1.index t = ![q.val, 0])

/-- What point `t` writes back is block `t` of the factors of the input array as the region finds it. -/
theorem written_eq (c : Dev nD) (t : Fin cfg0.N) :
    (dats m 0 c).flushed 1 t = ((cfg0.win 1).blk t).view.read (Elt Ideal) (factors (V m c main_v0)) := by
  show (cfg0.win 1).cut (grid0.coords t) ((dats m 0 c).after 1 t) = _
  rw [after0_1]
  unfold out0_1
  rw [View.canon_unit_zero zero_offset]
  simp only [View.ld_unit_zero (S := S4096x128) zero_offset]
  rw [stored_eq]
  obtain ⟨e0, e1, e2, e3⟩ := index_facts t
  funext j
  show Cert.Electro.factor (V m c main_v0 (((cfg0.win 0).blk t).view.emb j))
    = Cert.Electro.factor (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 4096 + 1 * (j 0).val = win0_1.index t (0 : Fin 2) * 4096 + 1 * (j 0).val; omega
    | ⟨1, _⟩ => show win0_0.index t (1 : Fin 2) * 128 + 1 * (j 1).val = win0_1.index t (1 : Fin 2) * 128 + 1 * (j 1).val; omega
  rw [h0]

/-- An index of the output array is in point `t`'s block iff each coordinate is in the block's range. -/
theorem mem_block (t : Fin cfg0.N) (i : S131072x128.Idx) :
    i ∈ ((cfg0.win 1).blk t).view.set ↔ ∀ a : Fin 2, win0_1.index t a * S4096x128.size a ≤ (i a).val
      ∧ (i a).val < win0_1.index t a * S4096x128.size a + S4096x128.size a := by
  show i ∈ ((View.whole main_v1).slice (win0_1.rect t)).set ↔ _
  rw [View.set_slice_whole, Rect.mem_set_unit]
  exact Iff.rfl

/-- Every index is in some point's block: row `r` lies in block `r / 4096`. -/
theorem covered (i : S131072x128.Idx) :
    ∃ t : Fin cfg0.N, (cfg0.win 1).flush t = true ∧ i ∈ ((cfg0.win 1).blk t).view.set := by
  have hi0 : (i 0).val < 131072 := (i 0).isLt
  have hi1 : (i 1).val < 128 := (i 1).isLt
  obtain ⟨t, ht⟩ := index_onto ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 128 ≤ (i 1).val ∧ (i 1).val < win0_1.index t (1 : Fin 2) * 128 + 128; omega

/-- The output array after the region: the factors of the input array. -/
theorem array_after (c : Dev nD) : (dats m 0 c).arrAt 1 cfg0.N = factors (V m c main_v0) :=
  (dats m 0 c).arrAt_eq_of_cover 1 (factors (V m c main_v0)) (fun t _ => written_eq m c t) covered

/-- The input array as the region finds it: the flat distance argument read in row-major order. -/
theorem array_before (c : Dev nD) :
    (V m c main_v0 : S131072x128.Idx → Elt Ideal .f32)
      = shapeCast S131072x128 (m ((c : Thread nD τ).loc main_arg0)) shapeCasts_S16777216_S131072x128 := by
  show StableHlo.after hostOps0 (fun b => m (c, b)) (Proc.devRef .tc main_v0) = _
  after_results
  rfl

end Cert.KernelIdeal.Pairs

end
-- ==== Proof.AtomSums.lean ====
/-
  What both programs do with the per-pair factors, as ONE function of the charges, the two atom-number arrays and
  the factors: pair `p` contributes `K · q(i_p) · q(j_p) · f_p` (multiplied in that order), `q` the charge table
  looked up at an atom number with a negative number counted from the end of the table, and the contributions are
  summed into the atoms `i_p` starting from zero. The certificate never opens this function: both programs apply
  it, and it is enough that they apply it to the same factors.
-/
import proofs.«180454_j59992103190615_2_alg».proof.Proof.Gen.KernelIdeal
import Idealize.ShloMosaic.PureOps.Ideal

noncomputable section

namespace Cert.KernelIdeal.Pairs

open Cert.KernelIdeal Cert.KernelIdeal.Facts₀ Idealize.ShloMosaic

/-- The per-atom sums of `K · q(i) · q(j) · f` over the pairs, from the charge table `qa`, the atom numbers `ii`,
    `jj` and the per-pair values `f`. -/
def atomSums (qa : FVec Ideal S262144 .f32) (ii jj : IVec S16777216 32) (f : FVec Ideal S16777216 .f32) :
    FVec Ideal S262144 .f32 :=
  Host.scatterAdd (F := Ideal) scatter_S262144_S16777216x1_S16777216_n_0_0_1
    (broadcastInDim S262144 ![] bcast_S_S262144 (constant (F := Ideal) S_ .f32 0x00000000#32))
    (broadcastInDim S16777216x1 ![0] bcast_S16777216_S16777216x1_0 ii)
    (mulf
      (mulf
        (mulf (broadcastInDim S16777216 ![] bcast_S_S16777216 (constant (F := Ideal) S_ .f32 0x40E664F3#32))
          (Host.gather gather_S262144_S16777216x1_S16777216_n_0_n_n_0_1_1 qa
            (broadcastInDim S16777216x1 ![0] bcast_S16777216_S16777216x1_0
              (select (cmpi .slt ii (broadcastInDim S16777216 ![] bcast_S_S16777216 (constantI S_ 32 0#32)))
                (addi ii (broadcastInDim S16777216 ![] bcast_S_S16777216 (constantI S_ 32 262144#32))) ii))))
        (Host.gather gather_S262144_S16777216x1_S16777216_n_0_n_n_0_1_1 qa
          (broadcastInDim S16777216x1 ![0] bcast_S16777216_S16777216x1_0
            (select (cmpi .slt jj (broadcastInDim S16777216 ![] bcast_S_S16777216 (constantI S_ 32 0#32)))
              (addi jj (broadcastInDim S16777216 ![] bcast_S_S16777216 (constantI S_ 32 262144#32))) jj))))
      f)

end Cert.KernelIdeal.Pairs

end
-- ==== Proof.KernelResult.lean ====
/-
  The idealized kernel's result: the per-atom sums of `K · q(i) · q(j)` times the factor of each pair's distance.

  After the region the host flattens the [131072,128] array of factors back to one axis and applies the per-atom
  sums to it. The region's array holds the factor of the reshaped distances at every index, and reshaping there
  and back is the identity, so the flattened array is `p ↦ factor (distance p)`; the charges and the atom numbers
  are the arguments as launched, which no line of the program writes.
-/
import proofs.«180454_j59992103190615_2_alg».proof.Proof.KernelArray
import proofs.«180454_j59992103190615_2_alg».proof.Proof.AtomSums

set_option maxRecDepth 16384

noncomputable section

namespace Cert.KernelIdeal.Pairs

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Reshaping the distances to rows of 128, taking the factor of every element and flattening again is taking
    the factor of every distance: the two reshapes cancel. -/
theorem flat_factors (d : FVec Ideal S16777216 .f32) :
    shapeCast S16777216 (factors (shapeCast S131072x128 d shapeCasts_S16777216_S131072x128)) shapeCasts_S131072x128_S16777216
      = fun p => Cert.Electro.factor (d p) := by
  have e : shapeCast S16777216 (factors (shapeCast S131072x128 d shapeCasts_S16777216_S131072x128)) shapeCasts_S131072x128_S16777216
      = fun p => Cert.Electro.factor
          (shapeCast S16777216 (shapeCast S131072x128 d shapeCasts_S16777216_S131072x128) shapeCasts_S131072x128_S16777216 p) := rfl
  rw [e, shapeCast_shapeCast]

/-- After the region the charge table is the argument as launched. -/
theorem charges_after (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- So are the first atom numbers, -/
theorem first_after (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- and the second. -/
theorem second_after (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- The region's output array after the region: the factors of the reshaped distances. -/
theorem factors_after (c : Dev nD) :
    Pipeline.withArrays (cfgs 0).spec c (V0 m c) (fun w => (dats m 0 c).arrAt w (cfgs 0).N) (Proc.devRef .tc main_v1)
      = factors (shapeCast S131072x128 (m ((c : Thread nD τ).loc main_arg0)) shapeCasts_S16777216_S131072x128) :=
  ((Pipeline.withArrays_arr spec0 launch0.win.arr_inj c _ _ 1).trans (array_after m c)).trans
    (congrArg factors (array_before m c))

set_option maxHeartbeats 4000000 in
/-- What the lines after the region leave in the result buffer. -/
theorem result_after (c : Dev nD) :
    Pipeline.afterTail₀ cfgs (dats m) 0 (V0 m) [hostOps1] c main_v23
      = atomSums (m ((c : Thread nD τ).loc main_arg1)) (m ((c : Thread nD τ).loc main_arg2)) (m ((c : Thread nD τ).loc main_arg3))
          (fun p => Cert.Electro.factor (m ((c : Thread nD τ).loc main_arg0) p)) := by
  unfold Pipeline.afterTail₀
  show StableHlo.after hostOps1 _ (Proc.devRef .tc main_v23) = _
  after_results_simp
  rw [charges_after, first_after, second_after, factors_after]
  show atomSums (m ((c : Thread nD τ).loc main_arg1)) (m ((c : Thread nD τ).loc main_arg2)) (m ((c : Thread nD τ).loc main_arg3))
      (shapeCast S16777216 (factors (shapeCast S131072x128 (m ((c : Thread nD τ).loc main_arg0)) shapeCasts_S16777216_S131072x128))
        shapeCasts_S131072x128_S16777216) = _
  rw [flat_factors]

/-- The run, read: every weakly fair execution of the idealized kernel's program terminates with the result buffer at
    the per-atom sums over the factors of the distances, and the four arguments unchanged. -/
theorem run : θ_run defs (onTc (τ := τ) (main (F := Ideal))) ⟨m, fun _ => 0, ρ⟩ fun r => ∀ c : Dev nD,
      r.2.mem ((c.tc : Thread nD τ).loc main_v23)
        = atomSums (m ((c : Thread nD τ).loc main_arg1)) (m ((c : Thread nD τ).loc main_arg2)) (m ((c : Thread nD τ).loc main_arg3))
            (fun p => Cert.Electro.factor (m ((c : Thread nD τ).loc main_arg0) p))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v23 (Pipeline.mem_restRefs_of main_v23 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Pairs

end
-- ==== Proof.ReferenceValue.lean ====
/-
  The reference's result as the per-atom sums of the SAME per-pair factors the kernel's region computes.

  The reference computes, pair by pair, the blend of the two Coulomb terms of the distance, multiplies it by
  `K · q(i) · q(j)` and only then masks the product by the long-range cutoff; the kernel masks the blend first and
  multiplies afterwards. Index by index the reference's masked product is the multiplier times the masked factor
  (outside the cutoff `a · 0 = 0` on the extended reals), so the array the reference sums into the atoms is the
  array of multipliers times the array of factors, and its result is the per-atom sum of those.
-/
import proofs.«180454_j59992103190615_2_alg».proof.Proof.Gen.ReferenceIdeal.Read
import proofs.«180454_j59992103190615_2_alg».proof.Proof.Pairwise
import proofs.«180454_j59992103190615_2_alg».proof.Proof.AtomSums

noncomputable section

namespace Cert.ReferenceIdeal.Pairs

open Cert.ReferenceIdeal Cert.ReferenceIdeal.Read Idealize.ShloMosaic

/-- The reference's unmasked blend at a pair is the blend of that pair's distance. -/
theorem blend_apply (x0 : (⟨S16777216, .f32⟩ : BufTy).Contents (Elt Ideal)) (i : S16777216.Idx) :
    val_main_v56 (F := Ideal) x0 i = Cert.Electro.blend (x0 i) := by
  simp only [val_main_v56_apply, val_main_v55_apply, val_main_v54_apply, val_main_v50_apply, val_main_v49_apply,
    val_main_cst_16_apply, val_main_v48_apply, val_main_v47_apply, val_main_v46_apply, val_main_cst_15_apply,
    val_main_v45_apply, val_main_v44_apply, val_main_cst_14_apply, val_main_v43_apply, val_main_v42_apply,
    val_main_cst_13_apply, val_main_v41_apply, val_main_v40_apply, val_main_v39_apply, val_main_cst_12_apply,
    val_main_v38_apply, val_main_v37_apply, val_main_cst_11_apply, val_main_v36_apply, val_main_v35_apply,
    val_main_cst_10_apply, val_main_v34_apply, val_main_call0_v1_apply, val_main_call0_v0_apply, val_main_cst_9_apply,
    val_main_v33_apply, val_main_v32_apply, val_main_cst_8_apply, val_main_v31_apply, val_main_v30_apply,
    val_main_v29_apply, val_main_cst_7_apply, val_main_v28_apply, val_main_v27_apply, val_main_v26_apply,
    val_main_cst_6_apply, val_main_v25_apply, val_main_v24_apply, val_main_cst_5_apply, val_main_v23_apply,
    val_main_v22_apply, val_main_v21_apply, val_main_v20_apply, val_main_cst_4_apply, val_main_v19_apply,
    val_main_v18_apply, val_main_cst_3_apply, val_main_v17_apply, val_main_v16_apply, val_main_v15_apply,
    val_main_cst_apply, val_main_v14_apply]
  rfl

/-- The array the reference sums into the atoms: the multipliers `K · q(i) · q(j)` times the masked factors. -/
theorem updates_eq (x0 : (⟨S16777216, .f32⟩ : BufTy).Contents (Elt Ideal)) (x1 : (⟨S262144, .f32⟩ : BufTy).Contents (Elt Ideal))
    (x2 x3 : (⟨S16777216, .i32⟩ : BufTy).Contents (Elt Ideal)) :
    val_main_v60 (F := Ideal) x0 x1 x2 x3
      = (mulf (val_main_v53 (F := Ideal) x1 x2 x3) (fun p => Cert.Electro.factor (x0 p)) : FVec Ideal S16777216 .f32) := by
  funext i
  rw [val_main_v60_apply, val_main_v59_apply, val_main_v58_apply, val_main_cst_18_apply, val_main_v57_apply,
    val_main_call1_v1_apply, val_main_call1_v0_apply, val_main_cst_19_apply, blend_apply]
  exact (Cert.Electro.mul_factor _ _).symm

/-- The reference's result: the per-atom sums of `K · q(i) · q(j)` times the factor of each pair's distance. -/
theorem result_eq (x0 : (⟨S16777216, .f32⟩ : BufTy).Contents (Elt Ideal)) (x1 : (⟨S262144, .f32⟩ : BufTy).Contents (Elt Ideal))
    (x2 x3 : (⟨S16777216, .i32⟩ : BufTy).Contents (Elt Ideal)) :
    val_main_v63 (F := Ideal) x0 x1 x2 x3
      = Cert.KernelIdeal.Pairs.atomSums x1 x2 x3 (fun p => Cert.Electro.factor (x0 p)) := by
  unfold val_main_v63
  rw [updates_eq]
  rfl

end Cert.ReferenceIdeal.Pairs

end
-- ==== Proof.lean ====
/-
  A kernel that computes, for 16777216 atom pairs, the distance-dependent factor of a screened Coulomb energy, whose
  host code then weights each factor by `K · q(i) · q(j)` and sums the pairs into their first atoms, against a
  reference that does all of it on the host.

  Both programs compute the same blend of a shielded and an ordinary Coulomb term of each distance, with the same
  constants and in the same order of operations. They differ in one place: the kernel zeroes the blend beyond the
  long-range cutoff and THEN multiplies by `K · q(i) · q(j)`, the reference multiplies first and zeroes the product.
  On the extended reals `a · 0 = 0` for every `a`, so the two agree pair by pair without any finiteness of the
  charges, and the per-atom sums, one function applied by both programs to equal arrays, agree.

  The kernel's side: its region writes, block by block, the factor of every element of the distances reshaped to
  rows of 128 lanes; the 32 blocks cover the array; flattening it again undoes the reshape. The reference's side: its
  run read one operation at a time down to a pair's distance. The two word-level and idealized frames are the
  class-A frames of a pointwise body; the reference's frame is its run with the result dropped; no operation of the
  kernel was rewritten on the way to its idealization, so that claim is trivial.
-/
import proofs.«180454_j59992103190615_2_alg».proof.Defs
import proofs.«180454_j59992103190615_2_alg».proof.Proof.Gen.Kernel
import proofs.«180454_j59992103190615_2_alg».proof.Proof.Gen.Kernel.Frame
import proofs.«180454_j59992103190615_2_alg».proof.Proof.Gen.KernelIdeal
import proofs.«180454_j59992103190615_2_alg».proof.Proof.Gen.KernelIdeal.Frame
import proofs.«180454_j59992103190615_2_alg».proof.Proof.Gen.ReferenceIdeal
import proofs.«180454_j59992103190615_2_alg».proof.Proof.Gen.Pre_finite_inputs
import proofs.«180454_j59992103190615_2_alg».proof.Proof.Gen.ReferenceIdeal.Run
import proofs.«180454_j59992103190615_2_alg».proof.Proof.Gen.ReferenceIdeal.Read
import proofs.«180454_j59992103190615_2_alg».proof.Proof.KernelResult
import proofs.«180454_j59992103190615_2_alg».proof.Proof.ReferenceValue
import Idealize.ShloMosaic.Adequacy
import Idealize.ShloMosaic.Init

noncomputable section

namespace Cert.Proof

open Idealize.ShloMosaic Idealize.SL.Sem

/-- The word-level kernel's program runs and leaves its arguments unchanged. -/
theorem frame_kernel : Cert.frame_Kernel := fun m ρ _ => Cert.Kernel.Gen.frame m ρ

/-- So does the idealized kernel's program. -/
theorem frame_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the arguments both programs end with the per-atom sums of `K · q(i) · q(j)` times the
    factor of each pair's distance. -/
theorem algebraic : Cert.algebraic_KernelIdeal_ReferenceIdeal := by
  intro m ρ m' ρ' _ hagree
  refine ⟨_, Cert.KernelIdeal.Pairs.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.Pairs.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
